-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S64 : Shape := ⟨1, ![64]⟩
abbrev S1 : Shape := ⟨1, ![1]⟩
abbrev S16x64 : Shape := ⟨2, ![16, 64]⟩
abbrev S64x1 : Shape := ⟨2, ![64, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x16 : S_.BroadcastsInDim S256x16 (![] : Fin 0 → Fin S256x16.rank)
  reducesTo_S256x16_S_d0_1 : S256x16.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S16x64 : S_.BroadcastsInDim S16x64 (![] : Fin 0 → Fin S16x64.rank)
  reducesTo_S16x64_S_d0_1 : S16x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg5 : FVec F S1 .f32) (main_arg6 : FVec F S16x64 .f32) (main_arg7 : FVec F S64x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S3200000 .f32) (main_arg3 : FVec F S256x16 .f32) (main_arg4 : FVec F S64 .f32) (main_arg5 : FVec F S1 .f32) (main_arg6 : FVec F S16x64 .f32) (main_arg7 : FVec F S64x1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x16 .f32 := Host.absf main_arg3
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S64 : Shape := ⟨1, ![64]⟩
abbrev S1 : Shape := ⟨1, ![1]⟩
abbrev S16x64 : Shape := ⟨2, ![16, 64]⟩
abbrev S64x1 : Shape := ⟨2, ![64, 1]⟩
abbrev S100000x16 : Shape := ⟨2, ![100000, 16]⟩
abbrev S5000x256 : Shape := ⟨2, ![5000, 256]⟩
abbrev S5000x16 : Shape := ⟨2, ![5000, 16]⟩
abbrev S1x3200000 : Shape := ⟨2, ![1, 3200000]⟩
abbrev S_ : Shape := ⟨0, ![]⟩
abbrev S3200000x1 : Shape := ⟨2, ![3200000, 1]⟩
abbrev S3200000x16 : Shape := ⟨2, ![3200000, 16]⟩
abbrev S100000x1 : Shape := ⟨2, ![100000, 1]⟩
abbrev S5000x1 : Shape := ⟨2, ![5000, 1]⟩
abbrev S5000x64 : Shape := ⟨2, ![5000, 64]⟩
abbrev S1x64 : Shape := ⟨2, ![1, 64]⟩
abbrev S1x1 : Shape := ⟨2, ![1, 1]⟩

abbrev nBuf : Space → Nat
  | .hbm => 30
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S64, .f32⟩
  | .hbm, ⟨5, _⟩ => ⟨S1, .f32⟩
  | .hbm, ⟨6, _⟩ => ⟨S16x64, .f32⟩
  | .hbm, ⟨7, _⟩ => ⟨S64x1, .f32⟩
  | .hbm, ⟨8, _⟩ => ⟨S100000x16, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x1, .f32⟩
  | .hbm, ⟨23, _⟩ => ⟨S3200000x16, .f32⟩
  | .hbm, ⟨24, _⟩ => ⟨S3200000x16, .f32⟩
  | .hbm, ⟨25, _⟩ => ⟨S_, .f32⟩
  | .hbm, ⟨26, _⟩ => ⟨S100000x16, .f32⟩
  | .hbm, ⟨27, _⟩ => ⟨S3200000x1, .i32⟩
  | .hbm, ⟨28, _⟩ => ⟨S100000x16, .f32⟩
  | .hbm, ⟨29, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x64, .f32⟩
  | .local _ .vmem, ⟨8, _⟩ => ⟨S64, .f32⟩
  | .local _ .vmem, ⟨9, _⟩ => ⟨S64x1, .f32⟩
  | .local _ .vmem, ⟨10, _⟩ => ⟨S1, .f32⟩
  | .local _ .vmem, ⟨11, _⟩ => ⟨S5000x1, .f32⟩
  | .local _ .vmem, ⟨12, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x256_S256x16_S5000x16_1_0_0_1_n_n_wf : DotDims.WF S5000x256 S256x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x64_S5000x64_1_0_0_1_n_n_wf : DotDims.WF S5000x16 S16x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S64 : Shape := ⟨1, ![64]⟩
abbrev S1 : Shape := ⟨1, ![1]⟩
abbrev S16x64 : Shape := ⟨2, ![16, 64]⟩
abbrev S64x1 : Shape := ⟨2, ![64, 1]⟩
abbrev S1x3200000 : Shape := ⟨2, ![1, 3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S64, .f32⟩
  | .hbm, ⟨5, _⟩ => ⟨S1, .f32⟩
  | .hbm, ⟨6, _⟩ => ⟨S16x64, .f32⟩
  | .hbm, ⟨7, _⟩ => ⟨S64x1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000x16, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x1, .f32⟩
  | .hbm, ⟨23, _⟩ => ⟨S3200000x16, .f32⟩
  | .hbm, ⟨24, _⟩ => ⟨S3200000x16, .f32⟩
  | .hbm, ⟨25, _⟩ => ⟨S_, .f32⟩
  | .hbm, ⟨26, _⟩ => ⟨S100000x16, .f32⟩
  | .hbm, ⟨27, _⟩ => ⟨S3200000x1, .i32⟩
  | .hbm, ⟨28, _⟩ => ⟨S100000x16, .f32⟩
  | .hbm, ⟨29, _⟩ => ⟨S_, .f32⟩
  | .hbm, ⟨30, _⟩ => ⟨S100000x16, .f32⟩
  | .hbm, ⟨31, _⟩ => ⟨S100000x16, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x1, .f32⟩
  | .hbm, ⟨40, _⟩ => ⟨S1x1, .f32⟩
  | .hbm, ⟨41, _⟩ => ⟨S100000x1, .f32⟩
  | .hbm, ⟨42, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x64_S100000x64_1_0_0_1_n_n_wf : DotDims.WF S100000x16 S16x64 S100000x64 [1] [0] [0] [1] [] []
  dot_S100000x64_S64x1_S100000x1_1_0_0_1_n_n_wf : DotDims.WF S100000x64 S64x1 S100000x1 [1] [0] [0] [1] [] []

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.HeadSpec.lean ====
/-
  The per-node head, as one function of the aggregated features and the head's parameters, on the extended reals.

  For node r the head takes the 16 aggregated features agg (r, ·), clamps each below at zero, maps them through the
  16 x 64 weights w0 and adds the bias b0, clamps the 64 results below at zero, and maps them through the 64 x 1
  weights w1 and adds the bias b1:

      out (r, q) = ( Σ_j  max ( ( Σ_k  max (agg (r, k)) 0 · w0 (k, j) ) + b0 j ) 0 · w1 (j, q) ) + b1 q .

  The zero the clamps compare with is kept as the float word both programs print, so it is the same term on both sides.
-/
import Idealize.ShloMosaic.PureOps.Ideal
import Idealize.ShloMosaic.Lib.ValueIdx

noncomputable section

namespace Cert.HeadSpec

open Idealize.ShloMosaic Idealize.ShloMosaic.ValueIdx

/-- The float zero word both programs clamp against, read as an extended real. -/
abbrev zeroWord : EReal := Ideal.ofBits .f32 0x00000000#32

/-- The hidden layer of node r: unit j of the 64. -/
def hiddenUnit (agg : (⟨2, ![100000, 16]⟩ : Shape).Idx → EReal) (b0 : (⟨1, ![64]⟩ : Shape).Idx → EReal)
    (w0 : (⟨2, ![16, 64]⟩ : Shape).Idx → EReal) (r : Fin 100000) (j : Fin 64) : EReal :=
  max ((∑ k : Fin 16, max (agg (ix2 r k)) zeroWord * w0 (ix2 k j)) + b0 (ix1 j)) zeroWord

/-- The head's output for node r (q ranges over the one output column). -/
def outAt (agg : (⟨2, ![100000, 16]⟩ : Shape).Idx → EReal) (b0 : (⟨1, ![64]⟩ : Shape).Idx → EReal)
    (b1 : (⟨1, ![1]⟩ : Shape).Idx → EReal) (w0 : (⟨2, ![16, 64]⟩ : Shape).Idx → EReal)
    (w1 : (⟨2, ![64, 1]⟩ : Shape).Idx → EReal) (r : Fin 100000) (q : Fin 1) : EReal :=
  (∑ j : Fin 64, hiddenUnit agg b0 w0 r j * w1 (ix2 j q)) + b1 (ix1 q)

/-- The head as a whole array [100000, 1]. -/
def head (agg : (⟨2, ![100000, 16]⟩ : Shape).Idx → EReal) (b0 : (⟨1, ![64]⟩ : Shape).Idx → EReal)
    (b1 : (⟨1, ![1]⟩ : Shape).Idx → EReal) (w0 : (⟨2, ![16, 64]⟩ : Shape).Idx → EReal)
    (w1 : (⟨2, ![64, 1]⟩ : Shape).Idx → EReal) : (⟨2, ![100000, 1]⟩ : Shape).Idx → EReal :=
  fun i => outAt agg b0 b1 w0 w1 (i 0) (i 1)

theorem head_apply (agg : (⟨2, ![100000, 16]⟩ : Shape).Idx → EReal) (b0 : (⟨1, ![64]⟩ : Shape).Idx → EReal)
    (b1 : (⟨1, ![1]⟩ : Shape).Idx → EReal) (w0 : (⟨2, ![16, 64]⟩ : Shape).Idx → EReal)
    (w1 : (⟨2, ![64, 1]⟩ : Shape).Idx → EReal) (r : Fin 100000) (q : Fin 1) :
    head agg b0 b1 w0 w1 (ix2 r q) = outAt agg b0 b1 w0 w1 r q := rfl

end Cert.HeadSpec

end
-- ==== Proof.RefValue.lean ====
/-
  The reference, read as three pieces: the feature transform x @ w as one plain product; the aggregation — gather the
  transformed rows at the (wrapped) source nodes, scale each by its edge weight, scatter-add into the destination
  nodes — as ONE function `aggregate` of the transformed features, the edge list and the edge weights; and the per-node
  head. The kernel runs the very same aggregation on the host between its two regions, so it is never opened: it is
  carried by congruence. Only the head is read at an index, each product as the sum over its contracted coordinate.
-/
import proofs.«176503_j33363305955328_1_alg».proof.Proof.Gen.ReferenceIdeal.Read
import proofs.«176503_j33363305955328_1_alg».proof.Proof.HeadSpec
import Idealize.ShloMosaic.Lib.StackMember

noncomputable section

namespace Cert.ReferenceIdeal.RefValue

open Cert.ReferenceIdeal Cert.ReferenceIdeal.Read Idealize.ShloMosaic Idealize.ShloMosaic.TcCoe Idealize.ShloMosaic.ValueIdx
open Cert.HeadSpec

/-- The aggregation of transformed features `h` along the weighted edges: row d of the result is the sum, over the
    edges e with destination d, of edge weight e times row (source e) of `h`. Stated as the host operations that
    compute it; both programs apply exactly these to their transformed features. -/
def aggregate (h : FVec Ideal S100000x16 .f32) (ei : IVec S2x3200000 32) (ew : FVec Ideal S3200000 .f32) :
    FVec Ideal S100000x16 .f32 :=
  Host.scatterAdd (F := Ideal) scatter_S100000x16_S3200000x1_S3200000x16_1_0_0_1 (val_main_v15 (F := Ideal)) (val_main_v16 (F := Ideal) ei)
    (mulf (F := Ideal) (Host.gather gather_S100000x16_S3200000x1_S3200000x16_1_0_n_n_0_1_116 h (val_main_v10 (F := Ideal) ei))
      (val_main_v13 (F := Ideal) ew))

/-- The whole function both programs compute. -/
def gcn (x : FVec Ideal S100000x256 .f32) (ei : IVec S2x3200000 32) (ew : FVec Ideal S3200000 .f32) (w : FVec Ideal S256x16 .f32)
    (b0 : FVec Ideal S64 .f32) (b1 : FVec Ideal S1 .f32) (w0 : FVec Ideal S16x64 .f32) (w1 : FVec Ideal S64x1 .f32) :
    FVec Ideal S100000x1 .f32 :=
  head (aggregate (Host.dotGeneral (F := Ideal) (DotDims.plain 100000 256 16) none x w) ei ew) b0 b1 w0 w1

variable (x0 : FVec Ideal S100000x256 .f32) (x1 : IVec S2x3200000 32) (x2 : FVec Ideal S3200000 .f32) (x3 : FVec Ideal S256x16 .f32)
  (x4 : FVec Ideal S64 .f32) (x5 : FVec Ideal S1 .f32) (x6 : FVec Ideal S16x64 .f32) (x7 : FVec Ideal S64x1 .f32)

/-- The reference's aggregated features are `aggregate` of its plain product. -/
theorem aggregated_eq : val_main_v17 (F := Ideal) x0 x1 x2 x3
    = aggregate (Host.dotGeneral (F := Ideal) (DotDims.plain 100000 256 16) none x0 x3) x1 x2 := rfl

/-- The first bias laid down the rows reads its entry at the column. -/
theorem bias0_apply (r : Fin 100000) (j : Fin 64) : val_main_v21 (F := Ideal) x4 (ix2 r j) = x4 (ix1 j) := by
  rw [val_main_v21_apply, val_main_v20_apply]
  exact congrArg x4 (funext fun a => by match a with | ⟨0, _⟩ => rfl)

/-- The second bias laid down the rows reads its one entry. -/
theorem bias1_apply (r : Fin 100000) (q : Fin 1) : val_main_v26 (F := Ideal) x5 (ix2 r q) = x5 (ix1 q) := by
  rw [val_main_v26_apply, val_main_v25_apply]
  exact congrArg x5 (funext fun a => by match a with | ⟨0, _⟩ => exact Fin.ext (by show 0 = q.val; have := q.isLt; omega))

/-- The zero the first clamp compares with, laid over the [100000, 16] array. -/
theorem zero16_apply (i : S100000x16.Idx) : val_main_call0_v0 (F := Ideal) i = zeroWord := by
  rw [val_main_call0_v0_apply, val_main_call0_cst_apply]; rfl
/-- The zero the second clamp compares with, laid over the [100000, 64] array. -/
theorem zero64_apply (i : S100000x64.Idx) : val_main_call1_v0 (F := Ideal) i = zeroWord := by
  rw [val_main_call1_v0_apply, val_main_call1_cst_apply]; rfl

/-- The clamped aggregated features at an entry. -/
theorem clamped_apply (r : Fin 100000) (k : Fin 16) : val_main_v18 (F := Ideal) x0 x1 x2 x3 (ix2 r k)
    = max (val_main_v17 (F := Ideal) x0 x1 x2 x3 (ix2 r k)) zeroWord := by
  rw [val_main_v18_apply, zero16_apply]
  generalize val_main_v17 (F := Ideal) x0 x1 x2 x3 (ix2 r k) = a
  rfl

/-- The first product at node r, unit j: the sum over the 16 clamped features. -/
theorem product0_apply (r : Fin 100000) (j : Fin 64) : val_main_v19 (F := Ideal) x0 x1 x2 x3 x6 (ix2 r j)
    = ∑ k : Fin 16, max (val_main_v17 (F := Ideal) x0 x1 x2 x3 (ix2 r k)) zeroWord * x6 (ix2 k j) := by
  unfold val_main_v19
  refine (StackMember.dotGeneral_plain_apply (m := 100000) (k := 16) (n := 64) none (val_main_v18 (F := Ideal) x0 x1 x2 x3) x6 r j).trans
    (Finset.sum_congr rfl fun k _ => ?_)
  rw [clamped_apply]

/-- The reference's hidden layer at node r, unit j, is the head's hidden unit of its aggregated features. -/
theorem hidden_apply (r : Fin 100000) (j : Fin 64) : val_main_v23 (F := Ideal) x0 x1 x2 x3 x4 x6 (ix2 r j)
    = hiddenUnit (val_main_v17 (F := Ideal) x0 x1 x2 x3) x4 x6 r j := by
  unfold hiddenUnit
  rw [val_main_v23_apply, val_main_v22_apply, zero64_apply, bias0_apply, product0_apply]
  generalize (∑ k : Fin 16, max (val_main_v17 (F := Ideal) x0 x1 x2 x3 (ix2 r k)) zeroWord * x6 (ix2 k j)) = s
  rfl

/-- The second product at node r: the sum over the 64 hidden units. -/
theorem product1_apply (r : Fin 100000) (q : Fin 1) : val_main_v24 (F := Ideal) x0 x1 x2 x3 x4 x6 x7 (ix2 r q)
    = ∑ j : Fin 64, hiddenUnit (val_main_v17 (F := Ideal) x0 x1 x2 x3) x4 x6 r j * x7 (ix2 j q) := by
  unfold val_main_v24
  refine (StackMember.dotGeneral_plain_apply (m := 100000) (k := 64) (n := 1) none (val_main_v23 (F := Ideal) x0 x1 x2 x3 x4 x6) x7 r q).trans
    (Finset.sum_congr rfl fun j _ => ?_)
  rw [hidden_apply]

/-- The reference's result at node r is the head's output of its aggregated features. -/
theorem result_apply (r : Fin 100000) (q : Fin 1) : val_main_v27 (F := Ideal) x0 x1 x2 x3 x4 x5 x6 x7 (ix2 r q)
    = outAt (val_main_v17 (F := Ideal) x0 x1 x2 x3) x4 x5 x6 x7 r q := by
  unfold outAt
  rw [val_main_v27_apply, bias1_apply, product1_apply]
  generalize (∑ j : Fin 64, hiddenUnit (val_main_v17 (F := Ideal) x0 x1 x2 x3) x4 x6 r j * x7 (ix2 j q)) = s
  rfl

/-- THE REFERENCE'S RESULT, as the whole function of the arguments. -/
theorem result_eq : val_main_v27 (F := Ideal) x0 x1 x2 x3 x4 x5 x6 x7 = gcn x0 x1 x2 x3 x4 x5 x6 x7 := by
  funext i
  obtain ⟨r, q, rfl⟩ : ∃ (r : Fin 100000) (q : Fin 1), i = ix2 r q := ⟨i 0, i 1, eq_ix2 i⟩
  rw [result_apply, aggregated_eq]
  unfold gcn
  rw [head_apply]

end Cert.ReferenceIdeal.RefValue

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.FeatureTransform.lean ====
/-
  The first kernel region: the feature transform. Each of the 20 grid points multiplies a block of 5000 rows of the
  node features (5000 x 256) by the whole weight matrix (256 x 16) into the zero accumulator and writes the 5000 x 16
  product back as rows 5000 t .. 5000 t + 4999 of the region's output array. Read at the extended reals, where the
  change of float format before the product is the identity, entry (r, q) of a block's product is the sum over the
  256 contracted coordinates of feature (5000 t + r, c) times weight (c, q): the same sum as entry (5000 t + r, q) of
  the plain product of the WHOLE feature array by the weights. So every block written back is the corresponding
  block of that one whole-array product, the 20 blocks tile the 100000 rows, and the output array ends holding it.
-/
import proofs.«176503_j33363305955328_1_alg».proof.Proof.Gen.KernelIdeal.Frame
import proofs.«176503_j33363305955328_1_alg».proof.Proof.LibPlainMatmul
import Idealize.ShloMosaic.Lib.Pipeline.Value
import Idealize.ShloMosaic.Lib.ValueIdx
import Idealize.ShloMosaic.Lib.StackMember

noncomputable section

namespace Cert.KernelIdeal.FeatureTransform

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

/-- The whole-array product of the node features by the weights: entry (r, q) is the sum over c of x (r, c) · w (c, q). -/
def xw (x : FVec Ideal S100000x256 .f32) (w : FVec Ideal S256x16 .f32) : FVec Ideal S100000x16 .f32 :=
  Host.dotGeneral (DotDims.plain 100000 256 16) none x w

theorem xw_apply (x : FVec Ideal S100000x256 .f32) (w : FVec Ideal S256x16 .f32) (r : Fin 100000) (q : Fin 16) :
    xw x w (ix2 r q) = ∑ c : Fin 256, x (ix2 r c) * w (ix2 c q) :=
  StackMember.dotGeneral_plain_apply none x w r q

/-- A block's product at entry (p, q): the body's stored value, over any two loaded blocks. -/
theorem stored_apply (x0 : Vec Ideal S5000x256 .f32) (x1 : Vec Ideal S256x16 .f32) (p : Fin 5000) (q : Fin 16) :
    k0_pay1 x0 x1 (ix2 p q) = ∑ c : Fin 256, x0 (ix2 p c) * x1 (ix2 c q) := by
  unfold k0_pay1
  exact Cert.LibPlainMatmul.matmul_plain_zero_apply (m := 5000) (k := 256) (n := 16) none x0 x1 p q

theorem zero2 : (![0, 0] : Fin 2 → Nat) = fun _ => 0 := funext fun a => by fin_cases a <;> rfl

/-- Where the three windows' blocks sit at grid point t: the feature block and the output block at row block t, the
    weights whole. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT GRID POINT t WRITES BACK is block t of the whole-array product of the arrays the region finds. -/
theorem flushed_eq (c : Dev nD) (t : Fin cfg0.N) :
    (dat0 V c).flushed 2 t = ((cfg0.win 2).blk t).view.read (Elt Ideal) (xw (V c main_arg0) (V c main_arg3)) := by
  show (cfg0.win 2).cut (grid0.coords t) ((dat0 V c).after 2 t) = _
  rw [after0_2]
  unfold out0_2
  rw [View.canon_unit_zero zero2]
  simp only [View.ld_unit_zero (S := S5000x256) zero2, View.ld_unit_zero (S := S256x16) zero2]
  obtain ⟨e0, e1, e2, e3, e4, e5⟩ := block_positions t
  funext j
  obtain ⟨p, q, rfl⟩ : ∃ (p : Fin 5000) (q : Fin 16), j = ix2 p q := ⟨j 0, j 1, eq_ix2 j⟩
  have ht : t.val < 20 := t.isLt
  -- the output entry's place in the array
  have hout : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  show k0_pay1 (iblk0 V c 0 t) (iblk0 V c 1 t) (ix2 p q) = xw (V c main_arg0) (V c main_arg3) (((cfg0.win 2).blk t).view.emb (ix2 p q))
  rw [hout, xw_apply]
  refine (stored_apply (iblk0 V c 0 t) (iblk0 V c 1 t) p q).trans (Finset.sum_congr rfl fun k _ => ?_)
  -- the feature entry and the weight entry each factor reads
  have hx : iblk0 V c 0 t (ix2 p k) = V c main_arg0 (ix2 (⟨t.val * 5000 + p.val, by omega⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  have hw : iblk0 V c 1 t (ix2 k q) = V c main_arg3 (ix2 k q) := by
    show V c main_arg3 (((cfg0.win 1).blk t).view.emb (ix2 k q)) = _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 16 + 1 * q.val = q.val; omega
  rw [hx, hw]

/-- An index of the output array is in point t's block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v0).slice (win0_2.rect t)).set ↔ _
  rw [View.set_slice_whole, Rect.mem_set_unit]
  exact Iff.rfl

/-- The 20 row blocks tile the array: row r is in the block of point r / 5000. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  refine ⟨⟨(i 0).val / 5000, by show (i 0).val / 5000 < 20; omega⟩, flush0_2 _, ?_⟩
  rw [mem_block]
  obtain ⟨e0, e1, e2, e3, e4, e5⟩ := block_positions ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; simp only [] at e4; omega
  | ⟨1, _⟩ => show win0_2.index _ (1 : Fin 2) * 16 ≤ (i 1).val ∧ (i 1).val < win0_2.index _ (1 : Fin 2) * 16 + 16; omega

/-- THE ARRAY after the region: the whole-array product of the feature and weight arrays the region finds. -/
theorem final (c : Dev nD) : (dat0 V c).arrAt 2 cfg0.N = xw (V c main_arg0) (V c main_arg3) :=
  (dat0 V c).arrAt_eq_of_cover 2 (xw (V c main_arg0) (V c main_arg3)) (fun t _ => flushed_eq V c t) covered

end Cert.KernelIdeal.FeatureTransform

end
-- ==== Proof.Head.lean ====
/-
  The second kernel region: the per-node head. Each of the 20 grid points loads a block of 5000 rows of the aggregated
  features (5000 x 16) and the head's parameters whole (w0 16 x 64, b0 64, w1 64 x 1, b1 1), and writes back the block's
  5000 x 1 outputs as rows 5000 t .. 5000 t + 4999 of the result. Read at the extended reals (a change of float format
  is the identity; a product accumulated into zero is the plain sum; a bias reshaped to one row and laid down the rows
  reads its entry at the column), row p of a block's output is the head of node 5000 t + p. So every block written back
  is the corresponding block of the head of the whole aggregated array, and the 20 blocks tile the 100000 rows.
-/
import proofs.«176503_j33363305955328_1_alg».proof.Proof.Gen.KernelIdeal.Frame
import proofs.«176503_j33363305955328_1_alg».proof.Proof.LibPlainMatmul
import proofs.«176503_j33363305955328_1_alg».proof.Proof.HeadSpec
import Idealize.ShloMosaic.Lib.Pipeline.Value
import Idealize.ShloMosaic.Lib.ValueIdx
import Idealize.ShloMosaic.Lib.ValueLayout

noncomputable section

namespace Cert.KernelIdeal.Head

open Cert.KernelIdeal Cert.KernelIdeal.Gen Idealize.ShloMosaic Idealize.ShloMosaic.TcCoe Idealize.ShloMosaic.ValueIdx
open Idealize.SL.Sem Cert.HeadSpec Cert.LibPlainMatmul

variable (V : (c : Dev nD) → (b : Ref sig .tc) → Buf (Elt Ideal) ((c : Thread nD τ).loc b))

/-- A block's output at row p: the body's stored value over any loaded blocks, as the head's formula on the block. -/
theorem stored_apply (a : Vec Ideal S5000x16 .f32) (w0 : Vec Ideal S16x64 .f32) (b0 : Vec Ideal S64 .f32)
    (w1 : Vec Ideal S64x1 .f32) (b1 : Vec Ideal S1 .f32) (p : Fin 5000) (q : Fin 1) :
    k1_pay1 a w0 b0 w1 b1 (ix2 p q)
      = (∑ j : Fin 64, max ((∑ k : Fin 16, max (a (ix2 p k)) zeroWord * w0 (ix2 k j)) + b0 (ix1 j)) zeroWord * w1 (ix2 j q))
        + b1 (ix1 q) := by
  unfold k1_pay1
  simp only [addf_apply]
  refine congrArg₂ (· + ·) ?_ ?_
  · -- the output product: a sum over the 64 hidden units
    refine (matmul_plain_zero_apply (m := 5000) (k := 64) (n := 1) none _ _ p q).trans
      (Finset.sum_congr rfl fun j _ => congrArg (· * w1 (ix2 j q)) ?_)
    -- hidden unit j: the clamp of the first product plus the bias
    refine congrArg (max · zeroWord) (congrArg₂ (· + ·) ?_ ?_)
    · refine (matmul_plain_zero_apply (m := 5000) (k := 16) (n := 64) none _ _ p j).trans
        (Finset.sum_congr rfl fun k _ => congrArg (· * w0 (ix2 k j)) ?_)
      show max (shapeCast S5000x16 a shapeCasts_S5000x16_S5000x16 (ix2 p k)) zeroWord = _
      rw [shapeCast_self]
    · exact (broadcastTo_1b_ab_apply _ _ p j).trans (shapeCast_a_1a_apply b0 _ 0 j)
  · exact (broadcastTo_1b_ab_apply _ _ p q).trans (shapeCast_a_1a_apply b1 _ 0 q)

theorem zero2 : (![0, 0] : Fin 2 → Nat) = fun _ => 0 := funext fun a => by fin_cases a <;> rfl
theorem zero1 : (![0] : Fin 1 → Nat) = fun _ => 0 := funext fun a => by fin_cases a; rfl

/-- Where the six windows' blocks sit at grid point t: the aggregated block and the output block at row block t, the
    four parameters whole. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT GRID POINT t WRITES BACK is block t of the head of the arrays the region finds. -/
theorem flushed_eq (c : Dev nD) (t : Fin cfg1.N) :
    (dat1 V c).flushed 5 t = ((cfg1.win 5).blk t).view.read (Elt Ideal)
      (head (V c main_v17) (V c main_arg4) (V c main_arg5) (V c main_arg6) (V c main_arg7)) := by
  show (cfg1.win 5).cut (grid1.coords t) ((dat1 V c).after 5 t) = _
  rw [after1_5]
  unfold out1_5
  rw [View.canon_unit_zero zero2]
  simp only [View.ld_unit_zero (S := S5000x16) zero2, View.ld_unit_zero (S := S16x64) zero2, View.ld_unit_zero (S := S64) zero1,
    View.ld_unit_zero (S := S64x1) zero2, View.ld_unit_zero (S := S1) zero1]
  obtain ⟨e0, e1, e2, e3, e4, e5, e6, e7, e8, e9⟩ := block_positions t
  funext j
  obtain ⟨p, q, rfl⟩ : ∃ (p : Fin 5000) (q : Fin 1), j = ix2 p q := ⟨j 0, j 1, eq_ix2 j⟩
  have ht : t.val < 20 := t.isLt
  have hout : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 1 + 1 * q.val = q.val; omega
  show k1_pay1 (iblk1 V c 0 t) (iblk1 V c 1 t) (iblk1 V c 2 t) (iblk1 V c 3 t) (iblk1 V c 4 t) (ix2 p q)
    = head (V c main_v17) (V c main_arg4) (V c main_arg5) (V c main_arg6) (V c main_arg7) (((cfg1.win 5).blk t).view.emb (ix2 p q))
  rw [hout, head_apply]
  refine (stored_apply (iblk1 V c 0 t) (iblk1 V c 1 t) (iblk1 V c 2 t) (iblk1 V c 3 t) (iblk1 V c 4 t) p q).trans ?_
  unfold outAt hiddenUnit
  -- each loaded block read where it sits in its array
  have ha : ∀ k : Fin 16, iblk1 V c 0 t (ix2 p k) = V c main_v17 (ix2 (⟨t.val * 5000 + p.val, by omega⟩ : Fin 100000) k) := fun k => by
    show V c main_v17 (((cfg1.win 0).blk t).view.emb (ix2 p k)) = _
    refine congrArg (V c main_v17) (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * k.val = k.val; omega
  have hw0 : ∀ (k : Fin 16) (j : Fin 64), iblk1 V c 1 t (ix2 k j) = V c main_arg6 (ix2 k j) := fun k j => by
    show V c main_arg6 (((cfg1.win 1).blk t).view.emb (ix2 k j)) = _
    refine congrArg (V c main_arg6) (funext fun a => Fin.ext ?_)
    match a with
    | ⟨0, _⟩ => show win1_1.index t (0 : Fin 2) * 16 + 1 * k.val = k.val; omega
    | ⟨1, _⟩ => show win1_1.index t (1 : Fin 2) * 64 + 1 * j.val = j.val; omega
  have hb0 : ∀ j : Fin 64, iblk1 V c 2 t (ix1 j) = V c main_arg4 (ix1 j) := fun j => by
    show V c main_arg4 (((cfg1.win 2).blk t).view.emb (ix1 j)) = _
    refine congrArg (V c main_arg4) (funext fun a => Fin.ext ?_)
    match a with
    | ⟨0, _⟩ => show win1_2.index t (0 : Fin 1) * 64 + 1 * j.val = j.val; omega
  have hw1 : ∀ j : Fin 64, iblk1 V c 3 t (ix2 j q) = V c main_arg7 (ix2 j q) := fun j => by
    show V c main_arg7 (((cfg1.win 3).blk t).view.emb (ix2 j q)) = _
    refine congrArg (V c main_arg7) (funext fun a => Fin.ext ?_)
    match a with
    | ⟨0, _⟩ => show win1_3.index t (0 : Fin 2) * 64 + 1 * j.val = j.val; omega
    | ⟨1, _⟩ => show win1_3.index t (1 : Fin 2) * 1 + 1 * q.val = q.val; omega
  have hb1 : iblk1 V c 4 t (ix1 q) = V c main_arg5 (ix1 q) := by
    show V c main_arg5 (((cfg1.win 4).blk t).view.emb (ix1 q)) = _
    refine congrArg (V c main_arg5) (funext fun a => Fin.ext ?_)
    match a with
    | ⟨0, _⟩ => show win1_4.index t (0 : Fin 1) * 1 + 1 * q.val = q.val; omega
  refine congrArg₂ (· + ·) (Finset.sum_congr rfl fun j _ => congrArg₂ (· * ·) (congrArg (max · zeroWord) (congrArg₂ (· + ·)
    (Finset.sum_congr rfl fun k _ => congrArg₂ (· * ·) (congrArg (max · zeroWord) (ha k)) (hw0 k j)) (hb0 j))) (hw1 j)) hb1

/-- An index of the output array is in point t's block iff each coordinate is in the block's range on its axis. -/
theorem mem_block (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v18).slice (win1_5.rect t)).set ↔ _
  rw [View.set_slice_whole, Rect.mem_set_unit]
  exact Iff.rfl

/-- The 20 row blocks tile the array: row r is in the block of point r / 5000. -/
theorem covered (i : S100000x1.Idx) : ∃ t : Fin cfg1.N, (cfg1.win 5).flush t = true ∧ i ∈ ((cfg1.win 5).blk t).view.set := by
  have hi0 : (i 0).val < 100000 := (i 0).isLt
  have hi1 : (i 1).val < 1 := (i 1).isLt
  refine ⟨⟨(i 0).val / 5000, by show (i 0).val / 5000 < 20; omega⟩, flush1_5 _, ?_⟩
  rw [mem_block]
  obtain ⟨e0, e1, e2, e3, e4, e5, e6, e7, e8, e9⟩ := block_positions ⟨(i 0).val / 5000, by show (i 0).val / 5000 < 20; omega⟩
  intro a
  match a with
  | ⟨0, _⟩ => show win1_5.index _ (0 : Fin 2) * 5000 ≤ (i 0).val ∧ (i 0).val < win1_5.index _ (0 : Fin 2) * 5000 + 5000; simp only [] at e8; omega
  | ⟨1, _⟩ => show win1_5.index _ (1 : Fin 2) * 1 ≤ (i 1).val ∧ (i 1).val < win1_5.index _ (1 : Fin 2) * 1 + 1; omega

/-- THE ARRAY after the region: the head of the aggregated array and the parameters the region finds. -/
theorem final (c : Dev nD) : (dat1 V c).arrAt 5 cfg1.N
    = head (V c main_v17) (V c main_arg4) (V c main_arg5) (V c main_arg6) (V c main_arg7) :=
  (dat1 V c).arrAt_eq_of_cover 5 _ (fun t _ => flushed_eq V c t) covered

end Cert.KernelIdeal.Head

end
-- ==== Proof.KernelValue.lean ====
/-
  The kernel's run, with its result named. The program is three segments: the feature-transform region, the host
  stretch that aggregates along the edges, and the head region. The buffer contents at the segment boundaries form a
  fold from the launch memory: after the first region its output array holds the product x @ w of the launch arrays;
  the host stretch leaves `aggregate` of that product, the edge list and the edge weights; after the second region the
  result array holds the head of that. No segment writes an argument, so the head's parameters are still the launch
  arrays when the second region reads them. Hence the result is `gcn` of the launch arrays.
-/
import proofs.«176503_j33363305955328_1_alg».proof.Proof.FeatureTransform
import proofs.«176503_j33363305955328_1_alg».proof.Proof.Head
import proofs.«176503_j33363305955328_1_alg».proof.Proof.RefValue
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.RefValue (aggregate gcn)

local notation "𝕄" => MT nD τ sig Unit (Elt Ideal) ℕ (UR sig nD τ) ℕ

variable (m : (ℓ : Loc nD τ sig) → Buf (Elt Ideal) ℓ) (ρ : Dev nD → PrngReg)

/-! ## The boundary contents, read -/

/-- After the first region its output array holds the product of the launch feature and weight arrays. -/
theorem transformed (c : Dev nD) : W1 m ρ c (Proc.devRef .tc main_v0)
    = FeatureTransform.xw (m ((c : Thread nD τ).loc main_arg0)) (m ((c : Thread nD τ).loc main_arg3)) :=
  (W1_arr m ρ c 2).trans (FeatureTransform.final (V0 m ρ) c)

/-- The first region writes neither the edge list nor the edge weights. -/
theorem edges_kept (c : Dev nD) : W1 m ρ c (Proc.devRef .tc main_arg1) = m ((c : Thread nD τ).loc main_arg1) :=
  W1_of_ne m ρ c main_arg1 (by decide)
theorem weights_kept (c : Dev nD) : W1 m ρ c (Proc.devRef .tc main_arg2) = m ((c : Thread nD τ).loc main_arg2) :=
  W1_of_ne m ρ c main_arg2 (by decide)

/-- The host stretch leaves, in the array the head region reads, the aggregation of the first region's output. -/
theorem aggregated (c : Dev nD) : V2 m ρ c main_v17
    = aggregate (W1 m ρ c (Proc.devRef .tc main_v0)) (W1 m ρ c (Proc.devRef .tc main_arg1)) (W1 m ρ c (Proc.devRef .tc main_arg2)) := by
  show StableHlo.after hostOps1 (W1 m ρ c) (Proc.devRef .tc main_v17) = _
  after_results
  rfl

/-- An array the head region only reads is, at the region's entry, what the whole run leaves in it. -/
theorem entry_of_input (c : Dev nD) (w : Fin cfg1.W) (hin : (cfg1.win w).isOut = false) :
    V2 m ρ c (Pipeline.arrRef spec1 w) = W3 m ρ c (Proc.devRef .tc (Pipeline.arrRef spec1 w)) :=
  ((W3_arr m ρ c w).trans (((dat1 (V2 m ρ) c).arrAt_in w hin _).trans (A_eq1 (V2 m ρ) c w))).symm

/-- THE RESULT ARRAY at the end of the fold: the whole function of the launch arrays. -/
theorem result_eq (c : Dev nD) : W3 m ρ c (Proc.devRef .tc main_v18)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W3_arr m ρ c 5).trans ((Head.final (V2 m ρ) c).trans ?_)
  have h4 : V2 m ρ c main_arg4 = m ((c : Thread nD τ).loc main_arg4) := (entry_of_input m ρ c 2 rfl).trans (W3_main_arg4 m ρ c)
  have h5 : V2 m ρ c main_arg5 = m ((c : Thread nD τ).loc main_arg5) := (entry_of_input m ρ c 4 rfl).trans (W3_main_arg5 m ρ c)
  have h6 : V2 m ρ c main_arg6 = m ((c : Thread nD τ).loc main_arg6) := (entry_of_input m ρ c 1 rfl).trans (W3_main_arg6 m ρ c)
  have h7 : V2 m ρ c main_arg7 = m ((c : Thread nD τ).loc main_arg7) := (entry_of_input m ρ c 3 rfl).trans (W3_main_arg7 m ρ c)
  rw [h4, h5, h6, h7, aggregated, transformed, edges_kept, weights_kept]
  unfold gcn FeatureTransform.xw
  rfl

end Cert.KernelIdeal.KernelValue

end
-- ==== Proof.KernelRun.lean ====
/-
  The kernel's run: every weakly fair execution of the kernel program terminates without a fault, its result array
  holding `gcn` of the launch arrays and its argument arrays unchanged. The run is the composition of the program's
  three segments (region, host stretch, region) from the launch memory; the final memory is read off the last
  boundary's contents, where the result array is `gcn` of the launch arrays (KernelValue.result_eq).
-/
import proofs.«176503_j33363305955328_1_alg».proof.Proof.KernelValue

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.RefValue (gcn)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the idealized kernel program with its result named. -/
theorem run : θ_run defs (onTc (τ := τ) (main (F := Ideal))) ⟨m, fun _ => 0, ρ⟩ (fun r => ∀ c : Dev nD,
      r.2.mem ((c.tc : Thread nD τ).loc main_v18)
        = gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v18 (by decide))).trans (KernelValue.result_eq m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.KernelRun

end
-- ==== Proof.lean ====
/-
  Equivalence, over the extended reals, of a two-region graph-convolution kernel and its plain reference.

  Both programs compute, for 100000 nodes with 256 features, edges (source, destination, weight), and parameters
  w (256 x 16), w0 (16 x 64), b0 (64), w1 (64 x 1), b1 (1):

      h   = x @ w                                              (feature transform)
      agg = Σ over edges e into each node of  weight e · h (source e)   (aggregation; negative sources wrap by +100000)
      out = max (max agg 0 @ w0 + b0) 0 @ w1 + b1              (per-node head)

  The kernel computes h in a first region, 5000 rows per grid point, each block's product accumulated into zero after
  a change of float format; aggregates on the host with the very operations the reference uses; and computes the head
  in a second region, again 5000 rows per grid point. At the extended reals a change of float format is the identity
  and a product accumulated into zero is the plain sum over the contracted coordinate, so each region's array is the
  corresponding whole-array function (FeatureTransform.final, Head.final: every block written back is the block of the
  one whole-array function, and the blocks tile the rows). The aggregation is the same function `aggregate` on both
  sides and is never opened. So both results are `gcn` of the arguments (KernelRun.run, RefValue.result_eq). The
  sums are never reordered and nothing is distributed or cancelled, so the finiteness precondition is not used.

  The idealization rewrote no operation, so `preserves` is trivial; the two kernel frames are the generated ones, and
  the reference's frame is its generated run with the result dropped.
-/
import proofs.«176503_j33363305955328_1_alg».proof.Defs
import proofs.«176503_j33363305955328_1_alg».proof.Proof.Gen.Kernel
import proofs.«176503_j33363305955328_1_alg».proof.Proof.Gen.Kernel.Skeleton
import proofs.«176503_j33363305955328_1_alg».proof.Proof.Gen.Kernel.Launch
import proofs.«176503_j33363305955328_1_alg».proof.Proof.Gen.Kernel.Points
import proofs.«176503_j33363305955328_1_alg».proof.Proof.Gen.Kernel.Frame
import proofs.«176503_j33363305955328_1_alg».proof.Proof.Gen.KernelIdeal
import proofs.«176503_j33363305955328_1_alg».proof.Proof.Gen.KernelIdeal.Skeleton
import proofs.«176503_j33363305955328_1_alg».proof.Proof.Gen.KernelIdeal.Launch
import proofs.«176503_j33363305955328_1_alg».proof.Proof.Gen.KernelIdeal.Points
import proofs.«176503_j33363305955328_1_alg».proof.Proof.Gen.KernelIdeal.Frame
import proofs.«176503_j33363305955328_1_alg».proof.Proof.Gen.ReferenceIdeal
import proofs.«176503_j33363305955328_1_alg».proof.Proof.Gen.Pre_finite_inputs
import proofs.«176503_j33363305955328_1_alg».proof.Proof.Gen.ReferenceIdeal.Run
import proofs.«176503_j33363305955328_1_alg».proof.Proof.Gen.ReferenceIdeal.Read
import proofs.«176503_j33363305955328_1_alg».proof.Proof.RefValue
import proofs.«176503_j33363305955328_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with `gcn` of the arguments in their result arrays. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v27_eq, Cert.ReferenceIdeal.RefValue.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
